-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S65536 : Shape := ⟨1, ![65536]⟩
abbrev S1 : Shape := ⟨1, ![1]⟩
abbrev S2048 : Shape := ⟨1, ![2048]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2048x65536 .f32) (main_arg1 : FVec F S65536 .f32) (main_arg2 : FVec F S1 .f32) (main_arg3 : FVec F S2048 .f32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S2048x65536 : Shape := ⟨2, ![2048, 65536]⟩
abbrev S65536 : Shape := ⟨1, ![65536]⟩
abbrev S1 : Shape := ⟨1, ![1]⟩
abbrev S2048 : Shape := ⟨1, ![2048]⟩
abbrev S512x8192 : Shape := ⟨2, ![512, 8192]⟩
abbrev S8192 : Shape := ⟨1, ![8192]⟩
abbrev S512 : Shape := ⟨1, ![512]⟩
abbrev S512x1 : Shape := ⟨2, ![512, 1]⟩
abbrev S1x8192 : Shape := ⟨2, ![1, 8192]⟩
abbrev S_ : Shape := ⟨0, ![]⟩

abbrev nBuf : Space → Nat
  | .hbm => 28
  | .vmem => 7
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S1, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S8192, .f32⟩
  | .local _ .vmem, ⟨3, _⟩ => ⟨S8192, .f32⟩
  | .local _ .vmem, ⟨4, _⟩ => ⟨S512, .f32⟩
  | .local _ .vmem, ⟨5, _⟩ => ⟨S512, .f32⟩
  | .local _ .vmem, ⟨6, _⟩ => ⟨S512x1, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x8192_S512x8192_0_0 : ∀ a, (![0, 0] : Fin 2 → Nat) a + S512x8192.size a ≤ S512x8192.size a
  h_S512x8192 : 0 < S512x8192.numel
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S512x8192 : S1x8192.Broadcasts S512x8192
  reduces_S512x8192_S512 : S512x8192.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  shapeCasts_S1_S_ : S1.ShapeCasts S_
  bcast_S_S2048 : S_.BroadcastsInDim S2048 (![] : Fin 0 → Fin S2048.rank)
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S2048x65536.size a
  hwx0_0 : ∀ i : grid0.Coords, EltTy.bits .f32 = 32 ∨ (Rect.block (s := S2048x65536) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S65536.size a
  hwx0_1 : ∀ i : grid0.Coords, EltTy.bits .f32 = 32 ∨ (Rect.block (s := S65536) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S2048.size a
  hwx0_2 : ∀ i : grid0.Coords, EltTy.bits .f32 = 32 ∨ (Rect.block (s := S2048) S512.size (cc0_transform_2 i) (hinb0_2 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x65536 : Shape := ⟨2, ![2048, 65536]⟩
abbrev S65536 : Shape := ⟨1, ![65536]⟩
abbrev S1 : Shape := ⟨1, ![1]⟩
abbrev S2048 : Shape := ⟨1, ![2048]⟩
abbrev S1x65536 : Shape := ⟨2, ![1, 65536]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S1, .f32⟩
  | .hbm, ⟨3, _⟩ => ⟨S2048, .f32⟩
  | .hbm, ⟨4, _⟩ => ⟨S1x65536, .f32⟩
  | .hbm, ⟨5, _⟩ => ⟨S2048x65536, .f32⟩
  | .hbm, ⟨6, _⟩ => ⟨S2048x65536, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S_, .f32⟩
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  reducesTo_S2048x65536_S2048_d1 : S2048x65536.ReducesTo [1] S2048
  h_S_ : 0 < S_.numel
  shapeCasts_S1_S_ : S1.ShapeCasts S_
  bcast_S_S2048 : S_.BroadcastsInDim S2048 (![] : Fin 0 → Fin S2048.rank)
  reducesTo_S2048_S_d0 : S2048.ReducesTo [0] S_

variable [Facts₀]

class Facts : Prop extends Facts₀ where

variable [Facts]
-- ==== Proof.LibColumn.lean ====
/-
  A vector viewed as a one-column matrix, and back, read at an index given by coordinates.

  A shape cast keeps the row-major position of every entry.  Entry `i` of a vector of `a` entries and
  entry `(i, 0)` of an `a × 1` matrix are both at position `i`, so the cast `[a] → [a, 1]` reads the
  vector at `i`, and the cast `[a, 1] → [a]` reads the column at `(i, 0)`.
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to a column `[a, 1]` reads, at `(i, u)`, the vector at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn
-- ==== Proof.Payload.lean ====
/-
  What the kernel body computes, read entry by entry over the extended reals.

  The body has three stored values.  The reset stores the zero column.  The accumulation stores, in row `r`
  of the 512 × 1 accumulator, the accumulator's entry plus the sum over the 8192 columns `j` of the block of
  `gate[r, j] · bias[j]` (the bias stretch is viewed as one row and repeated over the 512 rows, the products
  are summed along each row, and the 512 sums are viewed as a column).  The final store views the
  accumulator column as a vector of 512 entries.
-/
import proofs.«182148_j27255862460429_1_alg».proof.Proof.Gen.KernelIdeal.Skeleton
import proofs.«182148_j27255862460429_1_alg».proof.Proof.LibColumn
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibColumn

/-- The reset's column is zero in every row. -/
theorem pay1_apply (r : Fin 512) (u : Fin 1) : k0_pay1 (F := Ideal) (ix2 r u) = 0 := by
  unfold k0_pay1
  rw [shapeCast_self]
  exact Ideal.ofBits_zero_f32

/-- The bias stretch viewed as one row and repeated over the rows, times the gate block: at `(r, j)` the
    product `gate[r, j] · bias[j]`. -/
theorem prod_apply (x0 : FVec Ideal S512x8192 .f32) (x1 : FVec Ideal S8192 .f32) (r : Fin 512) (j : Fin 8192) :
    mulf x0 (broadcastTo S512x8192 (shapeCast S1x8192 x1 shapeCasts_S8192_S1x8192) broadcasts_S1x8192_S512x8192) (ix2 r j)
      = x0 (ix2 r j) * x1 (ix1 j) :=
  (mulf_apply x0 _ (ix2 r j)).trans (congrArg (x0 (ix2 r j) * ·)
    ((broadcastTo_1b_ab_apply _ broadcasts_S1x8192_S512x8192 r j).trans
      (shapeCast_a_1a_apply x1 shapeCasts_S8192_S1x8192 (0 : Fin 1) j)))

/-- Summing along row `r` visits the entries `(r, j)`. -/
theorem lift_eq (r : Fin 512) (j : Fin 8192) : reduces_S512x8192_S512.lift (ix1 r) j = ix2 r j :=
  funext fun a => Fin.ext (by match a with | ⟨0, _⟩ => rfl | ⟨1, _⟩ => rfl)

/-- The accumulation: row `r` of the new accumulator is the old entry plus the row's sum of
    `gate · bias` over the block's 8192 columns. -/
theorem pay2_apply (x0 : FVec Ideal S512x8192 .f32) (x1 : FVec Ideal S8192 .f32) (xs : FVec Ideal S512x1 .f32)
    (r : Fin 512) (u : Fin 1) :
    k0_pay2 (F := Ideal) x0 x1 xs (ix2 r u) = xs (ix2 r u) + ∑ j : Fin 8192, x0 (ix2 r j) * x1 (ix1 j) := by
  unfold k0_pay2
  rw [shapeCast_self]
  refine congrArg (xs (ix2 r u) + ·) ?_
  refine (shapeCast_a_a1_apply _ shapeCasts_S512_S512x1 r u).trans ?_
  refine (Ideal.multiReduction_add_single _ _ reduces_S512x8192_S512 _ _ (ix1 r)).trans ?_
  exact Finset.sum_congr rfl fun (j : Fin 8192) _ =>
    (congrArg (mulf x0 (broadcastTo S512x8192 (shapeCast S1x8192 x1 shapeCasts_S8192_S1x8192) broadcasts_S1x8192_S512x8192))
      (lift_eq r j)).trans (prod_apply x0 x1 r j)

/-- The final store: entry `r` of the output block is row `r` of the accumulator column. -/
theorem pay3_apply (v : FVec Ideal S512x1 .f32) (r : Fin 512) :
    k0_pay3 (F := Ideal) v (ix1 r) = v (ix2 r (0 : Fin 1)) := by
  unfold k0_pay3
  exact shapeCast_a1_a_apply v shapeCasts_S512x1_S512 r

end Cert.KernelIdeal.Pay

end
-- ==== Proof.Pieces.lean ====
/-
  What one run of the kernel body leaves behind, as the body's stored values.

  The body runs in one of three ways, by the position `k` of the block along the row.
  First block (`k = 0`): the accumulator is reset to the zero column and then the block's row sums are
  added, so it ends at "accumulation of the zero column".
  Middle block (`0 < k < 7`): the accumulator ends at "accumulation of what the block before left".
  Last block (`k = 7`): the same, and the output block is the accumulator column just stored, viewed
  as a vector.
  Each store covers its whole buffer, so what a buffer holds afterwards is the last stored value, and a load
  after a store reads the stored value back.  These statements hold for any reading of the floats.
-/
import proofs.«182148_j27255862460429_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The zero offsets of a matrix and of a vector, as constant functions. -/
theorem zeros2 : (![0, 0] : Fin 2 → Nat) = fun _ => 0 := funext fun a => by fin_cases a <;> rfl
theorem zeros1 : (![0] : Fin 1 → Nat) = fun _ => 0 := funext fun a => by fin_cases a <;> rfl

/-- First block: the accumulator ends at the accumulation of the zero column. -/
theorem scratch_first (c : Dev nD) (i : grid0.Coords) (arg2 : Memref sig .tc .vmem S512x8192 .f32) (harg2 : arg2.IsWhole) (arg3 : Memref sig .tc .vmem S8192 .f32) (harg3 : arg3.IsWhole) (arg4 : Memref sig .tc .vmem S512 .f32) (harg4 : arg4.IsWhole) (arg5 : Memref sig .tc .vmem S512x1 .f32) (harg5 : arg5.IsWhole) (hc0 : cond0_0 i) (hc1 : ¬cond0_1 i)
    (x0 : Vec F S512x8192 .f32) (x1 : Vec F S8192 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) zeros2, View.readCov_unit_zero (S := S512x1) _ zeros2]
  simp only [View.readAt_eq_ld, harg2.read_unread, harg3.read_unread, View.ld_unit_zero (S := S512x8192) zeros2,
    View.ld_unit_zero (S := S8192) zeros1]

/-- Middle block: the accumulator ends at the accumulation of what it held. -/
theorem scratch_middle (c : Dev nD) (i : grid0.Coords) (arg2 : Memref sig .tc .vmem S512x8192 .f32) (harg2 : arg2.IsWhole) (arg3 : Memref sig .tc .vmem S8192 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : ¬cond0_1 i)
    (x0 : Vec F S512x8192 .f32) (x1 : Vec F S8192 .f32) (xs0 : Vec F S512x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S512x1) zeros2]
  simp only [View.readAt_eq_ld, harg2.read_unread, harg3.read_unread, harg5.read_unread,
    View.ld_unit_zero (S := S512x8192) zeros2, View.ld_unit_zero (S := S8192) zeros1, View.ld_unit_zero (S := S512x1) zeros2]

/-- Last block: the accumulator ends at the accumulation of what it held, -/
theorem scratch_last (c : Dev nD) (i : grid0.Coords) (arg2 : Memref sig .tc .vmem S512x8192 .f32) (harg2 : arg2.IsWhole) (arg3 : Memref sig .tc .vmem S8192 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : cond0_1 i)
    (x0 : Vec F S512x8192 .f32) (x1 : Vec F S8192 .f32) (xs0 : Vec F S512x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S512x1) zeros2]
  simp only [View.readAt_eq_ld, harg2.read_unread, harg3.read_unread, harg5.read_unread,
    View.ld_unit_zero (S := S512x8192) zeros2, View.ld_unit_zero (S := S8192) zeros1, View.ld_unit_zero (S := S512x1) zeros2]

/-- and the output block is that column viewed as a vector. -/
theorem out_last (c : Dev nD) (i : grid0.Coords) (arg2 : Memref sig .tc .vmem S512x8192 .f32) (harg2 : arg2.IsWhole) (arg3 : Memref sig .tc .vmem S8192 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : cond0_1 i)
    (x0 : Vec F S512x8192 .f32) (x1 : Vec F S8192 .f32) (xs0 : Vec F S512x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S512) zeros1, View.readCov_unit_zero (S := S512x1) _ zeros2]
  simp only [View.readAt_eq_ld, harg2.read_unread, harg3.read_unread, harg5.read_unread,
    View.ld_unit_zero (S := S512x8192) zeros2, View.ld_unit_zero (S := S8192) zeros1, View.ld_unit_zero (S := S512x1) zeros2]

end Cert.KernelIdeal.Pieces

end
-- ==== Proof.RowSum.lean ====
/-
  Sums along a row of a matrix against a vector, taken in consecutive stretches of columns.

  A row of a 2048 × 65536 matrix `X` is multiplied entry by entry with a vector `v` of 65536 entries and
  summed.  The sum over all 65536 columns is the sum, over the 8 consecutive stretches of 8192 columns,
  of the stretch's sum; addition of extended reals is commutative and associative, so no finiteness is
  needed.  Entries are addressed by natural numbers (zero outside the matrix), so that the partial sums
  after 1, 2, …, 8 stretches are one expression in the number of stretches.
-/
import Idealize.ShloMosaic.Lib.ValueIdx
import Idealize.ShloMosaic.PureOps.Ideal

noncomputable section

open scoped BigOperators

namespace Cert.RowSum

open Idealize.ShloMosaic Idealize.ShloMosaic.ValueIdx

/-- The entry of a matrix at natural coordinates `(a, b)`; zero outside the matrix. -/
def ext2 {n0 n1 : ℕ} (X : (⟨2, ![n0, n1]⟩ : Shape).Idx → EReal) (a b : ℕ) : EReal :=
  if h : a < n0 ∧ b < n1 then X (ix2 ⟨a, h.1⟩ ⟨b, h.2⟩) else 0

/-- The entry of a vector at a natural position; zero outside the vector. -/
def ext1 {n : ℕ} (v : (⟨1, ![n]⟩ : Shape).Idx → EReal) (a : ℕ) : EReal :=
  if h : a < n then v (ix1 ⟨a, h⟩) else 0

/-- At the coordinates of an index the extension is the matrix's entry. -/
theorem ext2_of_val {n0 n1 : ℕ} (X : (⟨2, ![n0, n1]⟩ : Shape).Idx → EReal) (i : (⟨2, ![n0, n1]⟩ : Shape).Idx)
    (a b : ℕ) (ha : (i 0).val = a) (hb : (i 1).val = b) : X i = ext2 X a b := by
  subst ha hb
  unfold ext2
  rw [dif_pos ⟨idx2_lt0 i, idx2_lt1 i⟩]
  exact congrArg X (eq_ix2 i)

/-- At the coordinate of an index the extension is the vector's entry. -/
theorem ext1_of_val {n : ℕ} (v : (⟨1, ![n]⟩ : Shape).Idx → EReal) (i : (⟨1, ![n]⟩ : Shape).Idx)
    (a : ℕ) (ha : (i 0).val = a) : v i = ext1 v a := by
  subst ha
  unfold ext1
  rw [dif_pos (show (i 0).val < n from (i 0).isLt)]
  exact congrArg v (eq_ix1 i)

/-- The product of the matrix's entry `(a, k)` with the vector's entry `k`. -/
def term {n0 n1 : ℕ} (X : (⟨2, ![n0, n1]⟩ : Shape).Idx → EReal) (v : (⟨1, ![n1]⟩ : Shape).Idx → EReal) (a k : ℕ) : EReal :=
  ext2 X a k * ext1 v k

/-- The sum of one stretch: columns `8192 s, …, 8192 s + 8191` of row `a`. -/
def stretch {n0 n1 : ℕ} (X : (⟨2, ![n0, n1]⟩ : Shape).Idx → EReal) (v : (⟨1, ![n1]⟩ : Shape).Idx → EReal) (a s : ℕ) : EReal :=
  ∑ j : Fin 8192, term X v a (8192 * s + j.val)

/-- The sum of row `a` over its first `q` stretches. -/
def upTo {n0 n1 : ℕ} (X : (⟨2, ![n0, n1]⟩ : Shape).Idx → EReal) (v : (⟨1, ![n1]⟩ : Shape).Idx → EReal) (a q : ℕ) : EReal :=
  ∑ s ∈ Finset.range q, stretch X v a s

theorem upTo_zero {n0 n1 : ℕ} (X : (⟨2, ![n0, n1]⟩ : Shape).Idx → EReal) (v : (⟨1, ![n1]⟩ : Shape).Idx → EReal) (a : ℕ) :
    upTo X v a 0 = 0 := Finset.sum_range_zero _

theorem upTo_succ {n0 n1 : ℕ} (X : (⟨2, ![n0, n1]⟩ : Shape).Idx → EReal) (v : (⟨1, ![n1]⟩ : Shape).Idx → EReal) (a q : ℕ) :
    upTo X v a (q + 1) = upTo X v a q + stretch X v a q := Finset.sum_range_succ _ q

/-- A sum over the first `m * n` naturals, taken in `m` consecutive stretches of `n`. -/
theorem sum_range_mul {M : Type*} [AddCommMonoid M] (f : ℕ → M) (n : ℕ) :
    ∀ m : ℕ, ∑ k ∈ Finset.range (m * n), f k = ∑ s ∈ Finset.range m, ∑ j ∈ Finset.range n, f (n * s + j)
  | 0 => by simp
  | m + 1 => by
    rw [Nat.succ_mul, Finset.sum_range_add, sum_range_mul f n m, Finset.sum_range_succ, Nat.mul_comm m n]

/-- All 8 stretches together are the whole row: the sum over the 65536 columns. -/
theorem upTo_eight {n0 : ℕ} (X : (⟨2, ![n0, 65536]⟩ : Shape).Idx → EReal) (v : (⟨1, ![65536]⟩ : Shape).Idx → EReal) (a : ℕ) :
    upTo X v a 8 = ∑ k : Fin 65536, term X v a k.val := by
  unfold upTo stretch
  rw [Fin.sum_univ_eq_sum_range (fun k => term X v a k) 65536]
  refine Eq.trans ?_ (sum_range_mul (fun k => term X v a k) 8192 8).symm
  refine Finset.sum_congr rfl fun s _ => ?_
  exact Fin.sum_univ_eq_sum_range (fun j => term X v a (8192 * s + j)) 8192

/-- The vector of row sums: entry `i` is the sum of row `i` over all 8 stretches. -/
def rowSums {n0 : ℕ} (X : (⟨2, ![n0, 65536]⟩ : Shape).Idx → EReal) (v : (⟨1, ![65536]⟩ : Shape).Idx → EReal) :
    (⟨1, ![n0]⟩ : Shape).Idx → EReal :=
  fun i => upTo X v (i 0).val 8

end Cert.RowSum

end
-- ==== Proof.Blocks.lean ====
/-
  The blocks the kernel reads, as entries of the whole arrays.

  The grid has 32 points; point `t` works on row block `t / 8` (512 rows) and column stretch `t % 8`
  (8192 columns).  Entry `(r, j)` of the gate block at point `t` is `gate[512 (t / 8) + r, 8192 (t % 8) + j]`,
  entry `j` of the bias block is `bias[8192 (t % 8) + j]`, and the output block of point `t` starts at row
  `512 (t / 8)`.  So the row sum of `gate · bias` over the block's columns is the row's sum over stretch
  `t % 8`.
-/
import proofs.«182148_j27255862460429_1_alg».proof.Proof.Gen.KernelIdeal.Frame
import proofs.«182148_j27255862460429_1_alg».proof.Proof.RowSum
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.RowSum

variable (m : (ℓ : Loc nD τ sig) → Buf (Elt Ideal) ℓ)

/-- The gate matrix and the bias vector as the kernel finds them. -/
abbrev gate (c : Dev nD) : (⟨2, ![2048, 65536]⟩ : Shape).Idx → EReal := V m c main_arg0
abbrev bias (c : Dev nD) : (⟨1, ![65536]⟩ : Shape).Idx → EReal := V m c main_arg1

/-- The gate block and the bias block at point `t`. -/
abbrev gateBlk (c : Dev nD) (t : Fin cfg0.N) : FVec Ideal S512x8192 .f32 := iblk m c 0 t
abbrev biasBlk (c : Dev nD) (t : Fin cfg0.N) : FVec Ideal S8192 .f32 := iblk m c 1 t

/-- Which block each operand is on at point `t`: the gate at `(t / 8, t % 8)`, the bias at `t % 8`, the
    output at `t / 8` — decided over the 32 points. -/
theorem block_of_point : ∀ t : Fin cfg0.N, win0_0.index t (0 : Fin 2) = t.val / 8 ∧ win0_0.index t (1 : Fin 2) = t.val % 8
    ∧ win0_1.index t (0 : Fin 1) = t.val % 8 ∧ win0_2.index t (0 : Fin 1) = t.val / 8 :=
  (by decide +kernel : ∀ t : Fin grid0.N, _)

/-- Entry `(r, j)` of the gate block at point `t`. -/
theorem gate_block (c : Dev nD) (t : Fin cfg0.N) (r : Fin 512) (j : Fin 8192) :
    gateBlk m c t (ix2 r j)
      = ext2 (gate m c) (512 * (t.val / 8) + r.val) (8192 * (t.val % 8) + j.val) := by
  obtain ⟨e0, e1, -, -⟩ := block_of_point t
  show gate m c (((cfg0.win 0).blk t).view.emb (ix2 r j)) = _
  refine ext2_of_val (gate m c) _ _ _ ?_ ?_
  · show win0_0.index t (0 : Fin 2) * 512 + 1 * r.val = _
    omega
  · show win0_0.index t (1 : Fin 2) * 8192 + 1 * j.val = _
    omega

/-- Entry `j` of the bias block at point `t`. -/
theorem bias_block (c : Dev nD) (t : Fin cfg0.N) (j : Fin 8192) :
    biasBlk m c t (ix1 j) = ext1 (bias m c) (8192 * (t.val % 8) + j.val) := by
  obtain ⟨-, -, e2, -⟩ := block_of_point t
  show bias m c (((cfg0.win 1).blk t).view.emb (ix1 j)) = _
  refine ext1_of_val (bias m c) _ _ ?_
  show win0_1.index t (0 : Fin 1) * 8192 + 1 * j.val = _
  omega

/-- The row sum over the block's columns is the row's sum over stretch `t % 8`. -/
theorem block_row_sum (c : Dev nD) (t : Fin cfg0.N) (r : Fin 512) :
    ∑ j : Fin 8192, gateBlk m c t (ix2 r j) * biasBlk m c t (ix1 j)
      = stretch (gate m c) (bias m c) (512 * (t.val / 8) + r.val) (t.val % 8) :=
  Finset.sum_congr rfl fun j _ => by rw [gate_block m c t r j, bias_block m c t j]; rfl

end Cert.KernelIdeal.Blocks

end
-- ==== Proof.Accumulate.lean ====
/-
  The accumulator across the grid: partial row sums.

  Point `t` of the grid is block `k = t % 8` of row block `t / 8`.  By induction on the point, after point
  `t` row `r` of the accumulator holds the sum of row `512 (t / 8) + r` of `gate · bias` over the first
  `k + 1` stretches of 8192 columns: the first block of a row block starts from zero, every later block
  adds its stretch to what the block before left.  At the last block (`k = 7`) the output block is the
  accumulator, so its entry `r` is the sum over all 8 stretches.
-/
import proofs.«182148_j27255862460429_1_alg».proof.Proof.Payload
import proofs.«182148_j27255862460429_1_alg».proof.Proof.Pieces
import proofs.«182148_j27255862460429_1_alg».proof.Proof.Blocks

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.RowSum Cert.KernelIdeal.Pay Cert.KernelIdeal.Pieces Cert.KernelIdeal.Blocks

variable (m : (ℓ : Loc nD τ sig) → Buf (Elt Ideal) ℓ)

/-- One accumulation at point `t`: if row `r` of the accumulator held the row's sum over the first `t % 8`
    stretches, it now holds the sum over the first `t % 8 + 1`. -/
theorem accumulate_step (c : Dev nD) (t : Fin cfg0.N) (xs : FVec Ideal S512x1 .f32) (r : Fin 512) (u : Fin 1)
    (hxs : xs (ix2 r u) = upTo (gate m c) (bias m c) (512 * (t.val / 8) + r.val) (t.val % 8)) :
    k0_pay2 (F := Ideal) (iblk m c 0 t) (iblk m c 1 t) xs (ix2 r u)
      = upTo (gate m c) (bias m c) (512 * (t.val / 8) + r.val) (t.val % 8 + 1) :=
  (pay2_apply (gateBlk m c t) (biasBlk m c t) xs r u).trans
    ((congrArg₂ (· + ·) hxs (block_row_sum m c t r)).trans (upTo_succ _ _ _ _).symm)

/-- The first block of a row block: the accumulator starts from the zero column. -/
theorem after_first (c : Dev nD) (t : Fin cfg0.N) (h0 : t.val % 8 = 0) (r : Fin 512) (u : Fin 1) :
    ((outsAt0 m c t.val t.isLt).2 : FVec Ideal S512x1 .f32) (ix2 r u)
      = upTo (gate m c) (bias m c) (512 * (t.val / 8) + r.val) (t.val % 8 + 1) := by
  have h1 : ¬t.val % 8 = 7 := by omega
  rw [outsAt0_A m c t h0 h1]
  dsimp only
  refine (congrFun (scratch_first c (grid0.coords t) (ms0_0 t) (hs0_0 t) (ms0_1 t) (hs0_1 t) (ms0_2 t) (hs0_2 t) scM0_0 (Memref.isWhole_whole _) _ _ (iblk m c 0 t) (iblk m c 1 t)) (ix2 r u)).trans ?_
  refine accumulate_step m c t k0_pay1 r u ?_
  rw [pay1_apply, h0, upTo_zero]

/-- A later block: the accumulator starts from what the point before left. -/
theorem after_later (c : Dev nD) (t : Fin cfg0.N) (h0 : ¬t.val % 8 = 0)
    (hprev : ∀ (r : Fin 512) (u : Fin 1),
      ((outsAt0 m c (t.val - 1) (Nat.lt_of_le_of_lt (Nat.sub_le _ _) t.isLt)).2 : FVec Ideal S512x1 .f32) (ix2 r u)
        = upTo (gate m c) (bias m c) (512 * ((t.val - 1) / 8) + r.val) ((t.val - 1) % 8 + 1))
    (r : Fin 512) (u : Fin 1) :
    ((outsAt0 m c t.val t.isLt).2 : FVec Ideal S512x1 .f32) (ix2 r u)
      = upTo (gate m c) (bias m c) (512 * (t.val / 8) + r.val) (t.val % 8 + 1) := by
  have hd : (t.val - 1) / 8 = t.val / 8 := by omega
  have hm : (t.val - 1) % 8 + 1 = t.val % 8 := by omega
  have hx : ((outsAt0 m c (t.val - 1) (Nat.lt_of_le_of_lt (Nat.sub_le _ _) t.isLt)).2 : FVec Ideal S512x1 .f32) (ix2 r u)
      = upTo (gate m c) (bias m c) (512 * (t.val / 8) + r.val) (t.val % 8) := by
    rw [hprev r u, hd, hm]
  by_cases h1 : t.val % 8 = 7
  · rw [outsAt0_C m c t h0 h1]
    dsimp only
    refine (congrFun (scratch_last c (grid0.coords t) (ms0_0 t) (hs0_0 t) (ms0_1 t) (hs0_1 t) (ms0_2 t) (hs0_2 t) scM0_0 (Memref.isWhole_whole _) _ _ (iblk m c 0 t) (iblk m c 1 t)
      (outsAt0 m c (t.val - 1) (Nat.lt_of_le_of_lt (Nat.sub_le _ _) t.isLt)).2) (ix2 r u)).trans ?_
    exact accumulate_step m c t _ r u hx
  · rw [outsAt0_B m c t h0 h1]
    dsimp only
    refine (congrFun (scratch_middle c (grid0.coords t) (ms0_0 t) (hs0_0 t) (ms0_1 t) (hs0_1 t) (ms0_2 t) (hs0_2 t) scM0_0 (Memref.isWhole_whole _) _ _ (iblk m c 0 t) (iblk m c 1 t)
      (outsAt0 m c (t.val - 1) (Nat.lt_of_le_of_lt (Nat.sub_le _ _) t.isLt)).2) (ix2 r u)).trans ?_
    exact accumulate_step m c t _ r u hx

/-- After every point the accumulator holds the partial row sums. -/
theorem accumulator_eq (c : Dev nD) : ∀ (n : ℕ) (h : n < cfg0.N) (r : Fin 512) (u : Fin 1),
    ((outsAt0 m c n h).2 : FVec Ideal S512x1 .f32) (ix2 r u)
      = upTo (gate m c) (bias m c) (512 * (n / 8) + r.val) (n % 8 + 1)
  | 0, h, r, u => after_first m c ⟨0, h⟩ (Nat.zero_mod 8) r u
  | n + 1, h, r, u => by
    by_cases h0 : (n + 1) % 8 = 0
    · exact after_first m c ⟨n + 1, h⟩ h0 r u
    · exact after_later m c ⟨n + 1, h⟩ h0 (fun r u => accumulator_eq c n (Nat.lt_of_succ_lt h) r u) r u

/-- At the last block of a row block the output block is the accumulator: entry `r` is the whole row sum. -/
theorem output_eq (c : Dev nD) (t : Fin cfg0.N) (h7 : t.val % 8 = 7) (r : Fin 512) :
    ((outsAt0 m c t.val t.isLt).1 : FVec Ideal S512 .f32) (ix1 r)
      = upTo (gate m c) (bias m c) (512 * (t.val / 8) + r.val) 8 := by
  have h0 : ¬t.val % 8 = 0 := by omega
  have hd : (t.val - 1) / 8 = t.val / 8 := by omega
  have hm : (t.val - 1) % 8 + 1 = t.val % 8 := by omega
  have hx : ((outsAt0 m c (t.val - 1) (Nat.lt_of_le_of_lt (Nat.sub_le _ _) t.isLt)).2 : FVec Ideal S512x1 .f32) (ix2 r (0 : Fin 1))
      = upTo (gate m c) (bias m c) (512 * (t.val / 8) + r.val) (t.val % 8) := by
    rw [accumulator_eq m c (t.val - 1) _ r 0, hd, hm]
  rw [outsAt0_C m c t h0 h7]
  dsimp only
  refine (congrFun (out_last c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) (Nat.lt_of_le_of_lt (Nat.sub_le _ _) t.isLt)).2) (ix1 r)).trans ?_
  refine (pay3_apply _ r).trans ?_
  refine (accumulate_step m c t _ r 0 hx).trans ?_
  rw [h7]

end Cert.KernelIdeal.Acc

end
-- ==== Proof.Tail.lean ====
/-
  What both programs do with the vector of row sums.

  From the 2048 row sums `p`, the bias `g` (one entry) and the labels `y` (2048 entries) both programs
  compute, by the same host operations in the same order,
    logits = p + g                                   (the bias broadcast to every row),
    pred   = 1 / (1 + exp (-logits)),
    loss   = Σ (max (logits, 0) - logits · y + log1p (exp (-|logits|))).
  The three are named here once, as functions of `p`, `g` and `y`; the equality of the two programs'
  results follows from the equality of the row sums and never looks inside these functions.
-/
import Idealize.ShloMosaic.PureOps
import Idealize.ShloMosaic.PureOps.Ideal

noncomputable section

namespace Cert.Tail

open Idealize.ShloMosaic

/-- The shape of a scalar, of the one-entry bias, and of a vector with one entry per row. -/
abbrev Sc : Shape := ⟨0, ![]⟩
abbrev S1 : Shape := ⟨1, ![1]⟩
abbrev Sv : Shape := ⟨1, ![2048]⟩

/-- The row sums plus the bias. -/
def logits (hc : S1.ShapeCasts Sc) (hb : Sc.BroadcastsInDim Sv (![] : Fin 0 → Fin Sv.rank))
    (p : FVec Ideal Sv .f32) (g : FVec Ideal S1 .f32) : FVec Ideal Sv .f32 :=
  addf p (broadcastInDim Sv ![] hb (shapeCast _ g hc))

/-- The logistic function of the logits, as `1 / (1 + exp (-l))`. -/
def pred (hb : Sc.BroadcastsInDim Sv (![] : Fin 0 → Fin Sv.rank)) (l : FVec Ideal Sv .f32) : FVec Ideal Sv .f32 :=
  Host.divf (F := Ideal) (broadcastInDim Sv ![] hb (constant (F := Ideal) Sc .f32 0x3F800000#32))
    (addf (broadcastInDim Sv ![] hb (constant (F := Ideal) Sc .f32 0x3F800000#32)) (Host.exp (F := Ideal) (Host.negf (F := Ideal) l)))

/-- The summed cross-entropy of the logits against the labels. -/
def loss (hb : Sc.BroadcastsInDim Sv (![] : Fin 0 → Fin Sv.rank)) (hr : Sv.ReducesTo [0] Sc) (h0 : 0 < Sc.numel)
    (l y : FVec Ideal Sv .f32) : FVec Ideal Sc .f32 :=
  Host.reduceAdd (F := Ideal)
    (addf (subf (maximumf l (broadcastInDim Sv ![] hb (constant (F := Ideal) Sc .f32 0x00000000#32))) (mulf l y))
      (Host.log1p (F := Ideal) (Host.exp (F := Ideal) (Host.negf (F := Ideal) (Host.absf (F := Ideal) l)))))
    (constant (F := Ideal) Sc .f32 0x00000000#32) hr h0

end Cert.Tail

end
-- ==== Proof.KernelResult.lean ====
/-
  The kernel program's three results as functions of its arguments.

  The output array of the grid is written back once per row block, after the block's last stretch, and
  the 4 row blocks of 512 rows tile the 2048 rows: so the array ends as the vector of full row sums of
  `gate · bias`.  The host operations after the grid add the bias, and compute the logistic function and
  the summed cross-entropy of that vector.
-/
import proofs.«182148_j27255862460429_1_alg».proof.Proof.Accumulate
import proofs.«182148_j27255862460429_1_alg».proof.Proof.Tail
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.RowSum Cert.KernelIdeal.Blocks Cert.KernelIdeal.Acc

variable (m : (ℓ : Loc nD τ sig) → Buf (Elt Ideal) ℓ) (ρ : Dev nD → PrngReg)

/-- What the write-back after the last stretch of row block `t / 8` carries: rows
    `512 (t / 8), …, 512 (t / 8) + 511` of the vector of row sums. -/
theorem flushed_eq (c : Dev nD) (t : Fin cfg0.N) (hf : (cfg0.win 2).flush t = true) :
    (dats m 0 c).flushed 2 t = ((cfg0.win 2).blk t).view.read (Elt Ideal) (rowSums (gate m c) (bias m c)) := by
  have h7 : t.val % 8 = 7 := (flush0_2 t).mp hf
  obtain ⟨-, -, -, e3⟩ := block_of_point t
  show (cfg0.win 2).cut (grid0.coords t) ((dats m 0 c).after 2 t) = _
  rw [after0_2]
  funext y
  obtain ⟨r, rfl⟩ : ∃ r : Fin 512, y = ix1 r := ⟨y 0, eq_ix1 y⟩
  show ((outsAt0 m c t.val t.isLt).1 : FVec Ideal S512 .f32) (ix1 r)
    = rowSums (gate m c) (bias m c) (((cfg0.win 2).blk t).view.emb (ix1 r))
  rw [output_eq m c t h7 r]
  unfold rowSums
  refine congrArg (fun a => upTo (gate m c) (bias m c) a 8) ?_
  show _ = win0_2.index t (0 : Fin 1) * 512 + 1 * r.val
  omega

/-- An entry of the output array lies in point `t`'s block iff its row is in the block's 512 rows. -/
theorem mem_out_block (t : Fin cfg0.N) (i : S2048.Idx) :
    i ∈ ((cfg0.win 2).blk t).view.set
      ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- Row `i` is written back after the last stretch of its row block `i / 512`. -/
theorem covered (i : S2048.Idx) :
    ∃ t : Fin cfg0.N, (cfg0.win 2).flush t = true ∧ i ∈ ((cfg0.win 2).blk t).view.set := by
  have hi : (i 0).val < 2048 := (i 0).isLt
  have hN : cfg0.N = 32 := N_0
  obtain ⟨t, ht⟩ : ∃ t : Fin cfg0.N, t.val = 8 * ((i 0).val / 512) + 7 := ⟨⟨8 * ((i 0).val / 512) + 7, by omega⟩, rfl⟩
  obtain ⟨-, -, -, e3⟩ := block_of_point t
  refine ⟨t, (flush0_2 t).mpr (by omega), ?_⟩
  rw [mem_out_block]
  intro a
  match a with
  | ⟨0, _⟩ =>
    show win0_2.index t (0 : Fin 1) * 512 ≤ (i 0).val ∧ (i 0).val < win0_2.index t (0 : Fin 1) * 512 + 512
    omega

/-- The output array after the grid: the vector of row sums. -/
theorem final (c : Dev nD) : (dats m 0 c).arrAt 2 cfg0.N = rowSums (gate m c) (bias m c) :=
  (dats m 0 c).arrAt_eq_of_cover 2 (rowSums (gate m c) (bias m c)) (flushed_eq m c) covered

/-- What the host operations after the grid find: the output array at the row sums, the bias and the labels
    as at the start. -/
theorem tail_sums (c : Dev nD) :
    Pipeline.withArrays (cfgs 0).spec c (V0 m c) (fun w => (dats m 0 c).arrAt w (cfgs 0).N) (Proc.devRef .tc main_v0)
      = rowSums (gate m c) (bias m c) :=
  (Pipeline.withArrays_arr spec0 launch0.win.arr_inj c _ _ 2).trans (final m c)

theorem tail_bias (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

theorem tail_labels (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The logits the program ends with. -/
abbrev logits (c : Dev nD) : FVec Ideal Tail.Sv .f32 :=
  Tail.logits shapeCasts_S1_S_ bcast_S_S2048 (rowSums (gate m c) (bias m c)) (m ((c : Thread nD τ).loc main_arg2))

/-- The first result: the row sums plus the bias. -/
theorem logits_eq (c : Dev nD) :
    Pipeline.afterTail₀ cfgs (dats m) 0 (V0 m) [hostOps1] c main_v3 = logits m c := by
  unfold Pipeline.afterTail₀
  show StableHlo.after hostOps1 _ (Proc.devRef .tc main_v3) = _
  after_results
  rw [tail_sums m c, tail_bias m c]
  rfl

/-- The second result: the logistic function of the first. -/
theorem pred_eq (c : Dev nD) :
    Pipeline.afterTail₀ cfgs (dats m) 0 (V0 m) [hostOps1] c main_v9 = Tail.pred bcast_S_S2048 (logits m c) := by
  unfold Pipeline.afterTail₀
  show StableHlo.after hostOps1 _ (Proc.devRef .tc main_v9) = _
  after_results
  rw [tail_sums m c, tail_bias m c]
  rfl

/-- The third result: the summed cross-entropy of the first against the labels. -/
theorem loss_eq (c : Dev nD) :
    Pipeline.afterTail₀ cfgs (dats m) 0 (V0 m) [hostOps1] c main_v19
      = Tail.loss bcast_S_S2048 reducesTo_S2048_S_d0 h_S_ (logits m c) (m ((c : Thread nD τ).loc main_arg3)) := by
  unfold Pipeline.afterTail₀
  show StableHlo.after hostOps1 _ (Proc.devRef .tc main_v19) = _
  after_results
  rw [tail_sums m c, tail_bias m c, tail_labels m c]
  rfl

/-- Every execution of the program ends with the three results at these functions of the arguments, and
    the arguments unchanged. -/
theorem run : θ_run defs (onTc (τ := τ) (main (F := Ideal))) ⟨m, fun _ => 0, ρ⟩ fun r => ∀ c : Dev nD,
      r.2.mem ((c.tc : Thread nD τ).loc main_v3) = logits m c
      ∧ r.2.mem ((c.tc : Thread nD τ).loc main_v9) = Tail.pred bcast_S_S2048 (logits m c)
      ∧ r.2.mem ((c.tc : Thread nD τ).loc main_v19)
          = Tail.loss bcast_S_S2048 reducesTo_S2048_S_d0 h_S_ (logits m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (logits_eq m c),
      ((h c).2 main_v9 (Pipeline.mem_restRefs_of main_v9 (by decide) (by decide))).trans (pred_eq m c),
      ((h c).2 main_v19 (Pipeline.mem_restRefs_of main_v19 (by decide) (by decide))).trans (loss_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's three results as functions of its arguments.

  The reference multiplies every row of the gate matrix entry by entry with the bias vector and sums each
  row over its 65536 columns, starting from zero: its row sums are the sums over all 8 stretches.  From
  there on it applies the same host operations as the kernel's program to the vector of row sums.
-/
import proofs.«182148_j27255862460429_1_alg».proof.Proof.Gen.ReferenceIdeal.Read
import proofs.«182148_j27255862460429_1_alg».proof.Proof.RowSum
import proofs.«182148_j27255862460429_1_alg».proof.Proof.Tail
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Cert.RowSum

/-- The reference's sum along each row is the sum over all 8 stretches of the row. -/
theorem row_sums_eq (X : FVec Ideal S2048x65536 .f32) (v : FVec Ideal S65536 .f32) :
    val_main_v3 (F := Ideal) X v = rowSums X v := by
  funext i
  rw [val_main_v3_apply]
  show Ideal.ofBits .f32 0x00000000#32 + _ = _
  rw [Ideal.ofBits_zero_f32, zero_add]
  unfold rowSums
  rw [upTo_eight]
  refine Finset.sum_congr rfl fun k _ => ?_
  rw [val_main_v2_apply, val_main_v1_apply, val_main_v0_apply]
  show X (idx_main_v3 i k) * v (idx_main_v0 (idx_main_v1 (idx_main_v3 i k))) = term X v (i 0).val k.val
  unfold term
  rw [← ext2_of_val X (idx_main_v3 i k) (i 0).val k.val rfl rfl,
    ← ext1_of_val v (idx_main_v0 (idx_main_v1 (idx_main_v3 i k))) k.val rfl]

/-- The first result: the row sums plus the bias. -/
theorem logits_eq (X : FVec Ideal S2048x65536 .f32) (v : FVec Ideal S65536 .f32) (g : FVec Ideal S1 .f32) :
    val_main_v6 (F := Ideal) X v g = Tail.logits shapeCasts_S1_S_ bcast_S_S2048 (rowSums X v) g :=
  (show val_main_v6 (F := Ideal) X v g = Tail.logits shapeCasts_S1_S_ bcast_S_S2048 (val_main_v3 (F := Ideal) X v) g from rfl).trans
    (congrArg (fun p => Tail.logits shapeCasts_S1_S_ bcast_S_S2048 p g) (row_sums_eq X v))

/-- The second result: the logistic function of the first. -/
theorem pred_eq (X : FVec Ideal S2048x65536 .f32) (v : FVec Ideal S65536 .f32) (g : FVec Ideal S1 .f32) :
    val_main_v12 (F := Ideal) X v g
      = Tail.pred bcast_S_S2048 (Tail.logits shapeCasts_S1_S_ bcast_S_S2048 (rowSums X v) g) :=
  (show val_main_v12 (F := Ideal) X v g = Tail.pred bcast_S_S2048 (val_main_v6 (F := Ideal) X v g) from rfl).trans
    (congrArg (Tail.pred bcast_S_S2048) (logits_eq X v g))

/-- The third result: the summed cross-entropy of the first against the labels. -/
theorem loss_eq (X : FVec Ideal S2048x65536 .f32) (v : FVec Ideal S65536 .f32) (g : FVec Ideal S1 .f32)
    (y : FVec Ideal S2048 .f32) :
    val_main_v22 (F := Ideal) X v g y
      = Tail.loss bcast_S_S2048 reducesTo_S2048_S_d0 h_S_ (Tail.logits shapeCasts_S1_S_ bcast_S_S2048 (rowSums X v) g) y :=
  (show val_main_v22 (F := Ideal) X v g y
      = Tail.loss bcast_S_S2048 reducesTo_S2048_S_d0 h_S_ (val_main_v6 (F := Ideal) X v g) y from rfl).trans
    (congrArg (fun l => Tail.loss bcast_S_S2048 reducesTo_S2048_S_d0 h_S_ l y) (logits_eq X v g))

end Cert.ReferenceIdeal.RefValue

end
-- ==== Proof.lean ====
/-
  The kernel program and its reference compute the same three results over the extended reals.

  Both programs form `s[i] = Σ_k gate[i, k] · bias[k]` for each of the 2048 rows `i` and then, by the same
  host operations, `logits = s + global_bias`, `pred = 1 / (1 + exp (-logits))` and
  `loss = Σ_i (max (logits, 0) - logits · label + log1p (exp (-|logits|)))`.
  The reference sums each row over its 65536 columns at once.  The kernel walks a 4 × 8 grid: row block
  `i` (512 rows) by column stretch `k` (8192 columns); at `k = 0` it resets a 512 × 1 accumulator, at every
  `k` it adds the stretch's row sums, and at `k = 7` it writes the accumulator out.  Addition of extended
  reals is commutative and associative, so the 8 partial sums of a row add up to the row's whole sum
  whatever the inputs; the precondition is not used.  The rest of both programs is one and the same
  function of the row sums.
-/
import proofs.«182148_j27255862460429_1_alg».proof.Defs
import proofs.«182148_j27255862460429_1_alg».proof.Proof.Gen.Kernel
import proofs.«182148_j27255862460429_1_alg».proof.Proof.Gen.Kernel.Skeleton
import proofs.«182148_j27255862460429_1_alg».proof.Proof.Gen.Kernel.Launch
import proofs.«182148_j27255862460429_1_alg».proof.Proof.Gen.Kernel.Points
import proofs.«182148_j27255862460429_1_alg».proof.Proof.Gen.Kernel.Frame
import proofs.«182148_j27255862460429_1_alg».proof.Proof.Gen.KernelIdeal
import proofs.«182148_j27255862460429_1_alg».proof.Proof.Gen.KernelIdeal.Skeleton
import proofs.«182148_j27255862460429_1_alg».proof.Proof.Gen.KernelIdeal.Launch
import proofs.«182148_j27255862460429_1_alg».proof.Proof.Gen.KernelIdeal.Points
import proofs.«182148_j27255862460429_1_alg».proof.Proof.Gen.KernelIdeal.Frame
import proofs.«182148_j27255862460429_1_alg».proof.Proof.Gen.ReferenceIdeal
import proofs.«182148_j27255862460429_1_alg».proof.Proof.Gen.Pre_finite_inputs
import proofs.«182148_j27255862460429_1_alg».proof.Proof.Gen.ReferenceIdeal.Run
import proofs.«182148_j27255862460429_1_alg».proof.Proof.Gen.ReferenceIdeal.Read
import proofs.«182148_j27255862460429_1_alg».proof.Proof.KernelResult
import proofs.«182148_j27255862460429_1_alg».proof.Proof.RefValue
import Idealize.ShloMosaic.Adequacy
import Idealize.ShloMosaic.Init

noncomputable section

namespace Cert.Proof

open Idealize.ShloMosaic Idealize.SL.Sem

/-- The three programs run to the end without a fault and leave their arguments as they found them. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2.2.2)
    (Cert.ReferenceIdeal.Value.run (F := Ideal) m ρ)

/-- Nothing of the kernel was rewritten when it was read over the extended reals. -/
theorem preserves : Cert.preserves_Kernel_KernelIdeal := trivial

/-- From arguments that agree, both programs end with the logits, the predictions and the loss of the
    same vector of row sums. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v6_eq, Cert.ReferenceIdeal.RefValue.logits_eq,
      (hagree c).1, (hagree c).2.1, (hagree c).2.2.1]
    rfl
  · rw [(h c).2.1, Cert.ReferenceIdeal.Read.val_main_v12_eq, Cert.ReferenceIdeal.RefValue.pred_eq,
      (hagree c).1, (hagree c).2.1, (hagree c).2.2.1]
    rfl
  · rw [(h c).2.2.1, Cert.ReferenceIdeal.Read.val_main_v22_eq, Cert.ReferenceIdeal.RefValue.loss_eq,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
